-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S64x256x512 : Shape := ⟨3, ![64, 256, 512]⟩
abbrev S2048x512 : Shape := ⟨2, ![2048, 512]⟩
abbrev S512x2048 : Shape := ⟨2, ![512, 2048]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S64x256x512 : S_.BroadcastsInDim S64x256x512 (![] : Fin 0 → Fin S64x256x512.rank)
  reducesTo_S64x256x512_S_d0_1_2 : S64x256x512.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_arg4 : FVec F S2048x512 .f32) (main_arg5 : FVec F S512x2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  main_v28

def fn {F : FTy → Type} [FloatOps F] (main_arg0 : FVec F S256x512 .f32) (main_arg1 : FVec F S64x256x512 .f32) (main_arg2 : FVec F S2048x512 .f32) (main_arg3 : FVec F S2048x512 .f32) (main_arg4 : FVec F S2048x512 .f32) (main_arg5 : FVec F S512x2048 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S64x256x512 .f32 := Host.absf main_arg1
  let main_cst_0 : FVec F S_ .f32 := constant S_ .f32 0x7F800000#32
  let main_v5 : FVec F S64x256x512 .f32 := broadcastInDim S64x256x512 ![] bcast_S_S64x256x512 main_cst_0
  let main_v6 : IVec S64x256x512 1 := cmpf .olt main_v4 main_v5
  let main_c_1 : IVec S_ 1 := constantI S_ 1 1#1
  let main_v7 : IVec S_ 1 := (fun x v => Host.reduce IntOp.andi x v reducesTo_S64x256x512_S_d0_1_2 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_v13 main_v16
-- ==== Kernel.lean ====
abbrev S256x512 : Shape := ⟨2, ![256, 512]⟩
abbrev S64x256x512 : Shape := ⟨3, ![64, 256, 512]⟩
abbrev S2048x512 : Shape := ⟨2, ![2048, 512]⟩
abbrev S512x2048 : Shape := ⟨2, ![512, 2048]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S256x512, .f32⟩
  | .hbm, ⟨1, _⟩ => ⟨S64x256x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S512x2048, .f32⟩
  | .hbm, ⟨6, _⟩ => ⟨S256x512, .f32⟩
  | .local _ .vmem, ⟨0, _⟩ => ⟨S256x512, .f32⟩
  | .local _ .vmem, ⟨1, _⟩ => ⟨S1x256x512, .f32⟩
  | .local _ .vmem, ⟨2, _⟩ => ⟨S1x256x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S256x512, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v32 : BitVec 1 := Scalar.cmpi .eq arg0 c63_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  transposes_S2048x512_p1_0_S512x2048 : S2048x512.Transposes [1, 0] S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  broadcasts_S1x1_S256x2048 : S1x1.Broadcasts S256x2048
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  dot_S256x512_S512x2048_S256x2048_1_0_0_1_n_n_wf : DotDims.WF S256x512 S512x2048 S256x2048 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S64x256x512.size a
  hwx0_1 : ∀ i : grid0.Coords, EltTy.bits .f32 = 32 ∨ (Rect.block (s := S64x256x512) S1x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .f32 = 32 ∨ (Rect.block (s := S2048x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .f32 = 32 ∨ (Rect.block (s := S2048x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .f32 = 32 ∨ (Rect.block (s := S2048x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .f32 = 32 ∨ (Rect.block (s := S512x2048) S512x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x512 : Shape := ⟨2, ![256, 512]⟩
abbrev S64x256x512 : Shape := ⟨3, ![64, 256, 512]⟩
abbrev S2048x512 : Shape := ⟨2, ![2048, 512]⟩
abbrev S512x2048 : Shape := ⟨2, ![512, 2048]⟩
abbrev S256x2048 : Shape := ⟨2, ![256, 2048]⟩
abbrev S_ : Shape := ⟨0, ![]⟩
abbrev S64x256x2048 : Shape := ⟨3, ![64, 256, 2048]⟩
abbrev S64 : Shape := ⟨1, ![64]⟩
abbrev S64x1x1 : Shape := ⟨3, ![64, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S64x256x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S512x2048, .f32⟩
  | .hbm, ⟨6, _⟩ => ⟨S512x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S64x256x2048, .f32⟩
  | .hbm, ⟨17, _⟩ => ⟨S64x256x2048, .f32⟩
  | .hbm, ⟨18, _⟩ => ⟨S_, .f32⟩
  | .hbm, ⟨19, _⟩ => ⟨S64, .f32⟩
  | .hbm, ⟨20, _⟩ => ⟨S64x1x1, .f32⟩
  | .hbm, ⟨21, _⟩ => ⟨S64x256x2048, .f32⟩
  | .hbm, ⟨22, _⟩ => ⟨S64x256x2048, .f32⟩
  | .hbm, ⟨23, _⟩ => ⟨S64x256x2048, .f32⟩
  | .hbm, ⟨24, _⟩ => ⟨S64x256x2048, .f32⟩
  | .hbm, ⟨25, _⟩ => ⟨S_, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S2048x512, .f32⟩
  | .hbm, ⟨35, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  transposes_S2048x512_S512x2048_1_0 : S2048x512.Transposes [1, 0] S512x2048
  bcast_S_S256x2048 : S_.BroadcastsInDim S256x2048 (![] : Fin 0 → Fin S256x2048.rank)
  reducesTo_S64x256x2048_S64_d1_2 : S64x256x2048.ReducesTo [1, 2] S64
  h_S_ : 0 < S_.numel
  bcast_S64_S64x1x1_0 : S64.BroadcastsInDim S64x1x1 (![0] : Fin 1 → Fin S64x1x1.rank)
  bcast_S64x1x1_S64x256x2048_0_1_2 : S64x1x1.BroadcastsInDim S64x256x2048 (![0, 1, 2] : Fin 3 → Fin S64x256x2048.rank)
  reducesTo_S64x256x2048_S256x2048_d0 : S64x256x2048.ReducesTo [0] S256x2048
  transposes_S512x2048_S2048x512_1_0 : S512x2048.Transposes [1, 0] S2048x512
  dot_S256x512_S512x2048_S256x2048_1_0_0_1_n_n_wf : DotDims.WF S256x512 S512x2048 S256x2048 [1] [0] [0] [1] [] []
  dot_S64x256x512_S2048x512_S64x256x2048_2_1_01_0_n_n_wf : DotDims.WF S64x256x512 S2048x512 S64x256x2048 [2] [1] [0, 1] [0] [] []
  dot_S256x2048_S2048x512_S256x512_1_0_0_1_n_n_wf : DotDims.WF S256x2048 S2048x512 S256x512 [1] [0] [0] [1] [] []

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S64x256x512_S2048x512_S64x256x2048_2_1_01_0_n_n : DotDims S64x256x512 S2048x512 S64x256x2048 where
  lhsContracting := [2]
  rhsContracting := [1]
  lhsNonContracting := [0, 1]
  rhsNonContracting := [0]
  lhsBatch := []
  rhsBatch := []
  wf := dot_S64x256x512_S2048x512_S64x256x2048_2_1_01_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

class Facts : Prop extends Facts₀ where

variable [Facts]
-- ==== Proof.Pieces.lean ====
/-
  What one run of the kernel's body leaves in its three carried buffers and in the output block, as functions of what it
  read.

  The body has three ways to run. At the first window step it stores the gate (the logistic function of z_c · W_qᵀ) and
  zeros into the two accumulators, then adds the step's terms to the zeros it has just stored. At a middle step it adds
  the step's terms to what the step before left. At the last step it does the same and then stores the output block,
  computed from the two accumulators it has just updated and the gate it finds. Each buffer is written whole, so what
  it holds afterwards is the last value stored into it, and a value loaded back from a buffer stored earlier in the same
  run is the value that was stored. The arithmetic itself stays folded in the body's named terms; it is read entry by
  entry elsewhere.
-/
import proofs.«131885_j30305289240684_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a1 : Memref sig .tc .vmem S256x512 .f32) (h1 : a1.IsWhole) (a2 : Memref sig .tc .vmem S1x256x512 .f32) (h2 : a2.IsWhole) (a3 : Memref sig .tc .vmem S2048x512 .f32) (h3 : a3.IsWhole) (a4 : Memref sig .tc .vmem S2048x512 .f32) (h4 : a4.IsWhole) (a5 : Memref sig .tc .vmem S2048x512 .f32) (h5 : a5.IsWhole) (a6 : Memref sig .tc .vmem S512x2048 .f32) (h6 : a6.IsWhole) (a7 : Memref sig .tc .vmem S256x512 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (x0 : Vec F S256x512 .f32) (x1 : Vec F S1x256x512 .f32) (x2 : Vec F S2048x512 .f32) (x3 : Vec F S2048x512 .f32) (x4 : Vec F S2048x512 .f32) (x5 : Vec F S512x2048 .f32)

/-! ## The first window step -/

/-- The numerator's buffer after the first step: the step's term added to the stored zeros. -/
theorem first_num (hc0 : cond0_0 i) (hc1 : ¬cond0_1 i) :
    sout0_A_0 c i a1 h1 a2 h2 a3 h3 a4 h4 a5 h5 a6 h6 a7 h7 a8 h8 a9 h9 a10 h10 hc0 hc1 x0 x1 x2 x3 x4 x5 = k0_pay7 x1 x3 x4 (k0_pay3 (F := F)) := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S256x2048) hz, View.readCov_unit_zero (S := S256x2048) _ hz]
  simp only [View.readAt_eq_ld, h2.read_unread, h4.read_unread, h5.read_unread, View.ld_unit_zero (S := S2048x512) hz,
    View.ld_unit_zero (S := S1x256x512) hz3]

/-- The denominator's buffer after the first step. -/
theorem first_den (hc0 : cond0_0 i) (hc1 : ¬cond0_1 i) :
    sout0_A_1 c i a1 h1 a2 h2 a3 h3 a4 h4 a5 h5 a6 h6 a7 h7 a8 h8 a9 h9 a10 h10 hc0 hc1 x0 x1 x2 x3 x4 x5 = k0_pay8 x1 x3 (k0_pay4 (F := F)) := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S256x2048) hz, View.readCov_unit_zero (S := S256x2048) _ hz]
  simp only [View.readAt_eq_ld, h2.read_unread, h4.read_unread, View.ld_unit_zero (S := S2048x512) hz,
    View.ld_unit_zero (S := S1x256x512) hz3]

/-- The gate's buffer after the first step. -/
theorem first_gate (hc0 : cond0_0 i) (hc1 : ¬cond0_1 i) :
    sout0_A_2 c i a1 h1 a2 h2 a3 h3 a4 h4 a5 h5 a6 h6 a7 h7 a8 h8 a9 h9 a10 h10 hc0 hc1 x0 x1 x2 x3 x4 x5 = k0_pay2 x0 x2 := by
  unfold sout0_A_2
  rw [View.read_writes_eq_canon _ _ _ (scover0_A_2 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h3.read_unread, View.ld_unit_zero (S := S2048x512) hz,
    View.ld_unit_zero (S := S256x512) hz]

/-! ## A middle window step -/

variable (xs0 : Vec F S256x2048 .f32) (xs1 : Vec F S256x2048 .f32) (xs2 : Vec F S256x2048 .f32)

/-- The numerator's buffer after a middle step: the step's term added to what the step before left. -/
theorem middle_num (hc0 : ¬cond0_0 i) (hc1 : ¬cond0_1 i) :
    sout0_B_0 c i a1 h1 a2 h2 a3 h3 a4 h4 a5 h5 a6 h6 a7 h7 a8 h8 a9 h9 a10 h10 hc0 hc1 x0 x1 x2 x3 x4 x5 xs0 xs1 xs2 = k0_pay7 x1 x3 x4 xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x5 xs0 xs1 xs2)]
  unfold kernelRun0_B
  dsimp only
  sl_unfold_words
  rw [View.canon_unit_zero hz]
  simp only [View.readAt_eq_ld, h2.read_unread, h4.read_unread, h5.read_unread, h8.read_unread,
    View.ld_unit_zero (S := S2048x512) hz, View.ld_unit_zero (S := S256x2048) hz, View.ld_unit_zero (S := S1x256x512) hz3]

/-- The denominator's buffer after a middle step. -/
theorem middle_den (hc0 : ¬cond0_0 i) (hc1 : ¬cond0_1 i) :
    sout0_B_1 c i a1 h1 a2 h2 a3 h3 a4 h4 a5 h5 a6 h6 a7 h7 a8 h8 a9 h9 a10 h10 hc0 hc1 x0 x1 x2 x3 x4 x5 xs0 xs1 xs2 = k0_pay8 x1 x3 xs1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 x4 x5 xs0 xs1 xs2)]
  unfold kernelRun0_B
  dsimp only
  sl_unfold_words
  rw [View.canon_unit_zero hz]
  simp only [View.readAt_eq_ld, h2.read_unread, h4.read_unread, h9.read_unread,
    View.ld_unit_zero (S := S2048x512) hz, View.ld_unit_zero (S := S256x2048) hz, View.ld_unit_zero (S := S1x256x512) hz3]

/-! ## The last window step -/

/-- The numerator's buffer after the last step. -/
theorem last_num (hc0 : ¬cond0_0 i) (hc1 : cond0_1 i) :
    sout0_C_0 c i a1 h1 a2 h2 a3 h3 a4 h4 a5 h5 a6 h6 a7 h7 a8 h8 a9 h9 a10 h10 hc0 hc1 x0 x1 x2 x3 x4 x5 xs0 xs1 xs2 = k0_pay7 x1 x3 x4 xs0 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 x5 xs0 xs1 xs2)]
  unfold kernelRun0_C
  dsimp only
  sl_unfold_words
  rw [View.canon_unit_zero hz]
  simp only [View.readAt_eq_ld, h2.read_unread, h4.read_unread, h5.read_unread, h8.read_unread,
    View.ld_unit_zero (S := S2048x512) hz, View.ld_unit_zero (S := S256x2048) hz, View.ld_unit_zero (S := S1x256x512) hz3]

/-- The denominator's buffer after the last step. -/
theorem last_den (hc0 : ¬cond0_0 i) (hc1 : cond0_1 i) :
    sout0_C_1 c i a1 h1 a2 h2 a3 h3 a4 h4 a5 h5 a6 h6 a7 h7 a8 h8 a9 h9 a10 h10 hc0 hc1 x0 x1 x2 x3 x4 x5 xs0 xs1 xs2 = k0_pay8 x1 x3 xs1 := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 x4 x5 xs0 xs1 xs2)]
  unfold kernelRun0_C
  dsimp only
  sl_unfold_words
  rw [View.canon_unit_zero hz]
  simp only [View.readAt_eq_ld, h2.read_unread, h4.read_unread, h9.read_unread,
    View.ld_unit_zero (S := S2048x512) hz, View.ld_unit_zero (S := S256x2048) hz, View.ld_unit_zero (S := S1x256x512) hz3]

/-- The output block after the last step: computed from the two accumulators as the step has just left them, the gate as
    it found it, and the output matrix. -/
theorem last_out (hc0 : ¬cond0_0 i) (hc1 : cond0_1 i) :
    out0_C_6 c i a1 h1 a2 h2 a3 h3 a4 h4 a5 h5 a6 h6 a7 h7 a8 h8 a9 h9 a10 h10 hc0 hc1 x0 x1 x2 x3 x4 x5 xs0 xs1 xs2
      = k0_pay1 (k0_pay7 x1 x3 x4 xs0) (k0_pay8 x1 x3 xs1) xs2 x5 := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 x5 xs0 xs1 xs2)]
  unfold kernelRun0_C
  dsimp only
  sl_unfold_words
  rw [View.canon_unit_zero hz]
  simp only [View.readCov_unit_zero (S := S256x2048) _ hz, View.readAt_eq_ld, h2.read_unread, h4.read_unread, h5.read_unread,
    h6.read_unread, h8.read_unread, h9.read_unread, h10.read_unread, View.ld_unit_zero (S := S2048x512) hz,
    View.ld_unit_zero (S := S256x2048) hz, View.ld_unit_zero (S := S512x2048) hz, View.ld_unit_zero (S := S1x256x512) hz3]

end Cert.KernelIdeal.Pieces

end
-- ==== Proof.Spec.lean ====
/-
  The function both programs compute, entry by entry, on the extended reals.

  Inputs: a current latent z_c [256, 512], a window of 64 latents z_w [64, 256, 512], three projection matrices
  W_q, W_k, W_v [2048, 512] and an output matrix W_o [512, 2048].

  For a window step w, K_w = z_w[w] · W_kᵀ and V_w = z_w[w] · W_vᵀ are [256, 2048] matrices, m_w is the largest entry
  of K_w, and E_w = exp (K_w − m_w) entry by entry. The numerator is num = Σ_w E_w ∘ V_w, the denominator
  den = Σ_w E_w, the gate is the logistic function of z_c · W_qᵀ, and the result is

      out = (gate ∘ (num / (ε + den))) · W_oᵀ        ([256, 512]),

  where ε is the single-precision number nearest 1e-8 and every product with a transposed matrix is a finite sum of
  products of entries. Nothing is rounded and no sum has an order.

  The partial sums over the first n window steps are stated too (`numUpTo`, `denUpTo`): a program that visits the
  window steps one after the other holds them after step n − 1.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An r × c matrix of extended reals, indexed as the programs' rank-2 arrays are. -/
abbrev Mat (r c : Nat) : Type := (⟨2, ![r, c]⟩ : Shape).Idx → EReal
/-- A stack of w matrices. -/
abbrev Cube (w r c : Nat) : Type := (⟨3, ![w, r, c]⟩ : Shape).Idx → EReal

/-- Entry (b, a) of z · Wᵀ: row b of z against row a of W. -/
def proj (z : Mat 256 512) (W : Mat 2048 512) (b : Fin 256) (a : Fin 2048) : EReal :=
  ∑ l : Fin 512, z (ix2 b l) * W (ix2 a l)

/-- Entry (b, a) of z_w[w] · Wᵀ. -/
def projW (zw : Cube 64 256 512) (W : Mat 2048 512) (w : Fin 64) (b : Fin 256) (a : Fin 2048) : EReal :=
  ∑ l : Fin 512, zw (ix3 w b l) * W (ix2 a l)

/-- The largest entry of a 256 × 2048 matrix (−∞ would be the value on an empty one). -/
def gmax (f : Fin 256 → Fin 2048 → EReal) : EReal := ⨆ b, ⨆ a, f b a

theorem gmax_le_iff (f : Fin 256 → Fin 2048 → EReal) (c : EReal) : gmax f ≤ c ↔ ∀ b a, f b a ≤ c := by
  unfold gmax; simp only [iSup_le_iff]

/-- A number with the upper bounds of the matrix's entries, and no others, is its largest entry: the way a maximum
    taken in any order, in one pass or in two, is recognised. -/
theorem eq_gmax (x : EReal) (f : Fin 256 → Fin 2048 → EReal) (h : ∀ c, x ≤ c ↔ ∀ b a, f b a ≤ c) : x = gmax f :=
  eq_of_forall_ge_iff fun c => (h c).trans (gmax_le_iff f c).symm

variable (zc : Mat 256 512) (zw : Cube 64 256 512) (Wq Wk Wv : Mat 2048 512) (Wo : Mat 512 2048)

/-- E_w at (b, a): exp (K_w (b, a) − max K_w). -/
def wexp (w : Fin 64) (b : Fin 256) (a : Fin 2048) : EReal :=
  Ideal.exp (projW zw Wk w b a - gmax (projW zw Wk w))

/-- Window step w's term of the numerator (zero past the window, so that partial sums range over ℕ). -/
def numTerm (w : ℕ) (b : Fin 256) (a : Fin 2048) : EReal :=
  if h : w < 64 then wexp zw Wk ⟨w, h⟩ b a * projW zw Wv ⟨w, h⟩ b a else 0

/-- Window step w's term of the denominator. -/
def denTerm (w : ℕ) (b : Fin 256) (a : Fin 2048) : EReal :=
  if h : w < 64 then wexp zw Wk ⟨w, h⟩ b a else 0

/-- The numerator over the first n window steps. -/
def numUpTo (n : ℕ) (b : Fin 256) (a : Fin 2048) : EReal := ∑ w ∈ Finset.range n, numTerm zw Wk Wv w b a
/-- The denominator over the first n window steps. -/
def denUpTo (n : ℕ) (b : Fin 256) (a : Fin 2048) : EReal := ∑ w ∈ Finset.range n, denTerm zw Wk w b a

/-- The numerator: Σ_w E_w · V_w. -/
def num (b : Fin 256) (a : Fin 2048) : EReal := ∑ w : Fin 64, wexp zw Wk w b a * projW zw Wv w b a
/-- The denominator: Σ_w E_w. -/
def den (b : Fin 256) (a : Fin 2048) : EReal := ∑ w : Fin 64, wexp zw Wk w b a

theorem numUpTo_zero (b : Fin 256) (a : Fin 2048) : numUpTo zw Wk Wv 0 b a = 0 := by
  unfold numUpTo; exact Finset.sum_range_zero _

theorem denUpTo_zero (b : Fin 256) (a : Fin 2048) : denUpTo zw Wk 0 b a = 0 := by
  unfold denUpTo; exact Finset.sum_range_zero _

/-- One more window step adds its term on the right. -/
theorem numUpTo_succ (n : ℕ) (h : n < 64) (b : Fin 256) (a : Fin 2048) :
    numUpTo zw Wk Wv (n + 1) b a = numUpTo zw Wk Wv n b a + wexp zw Wk ⟨n, h⟩ b a * projW zw Wv ⟨n, h⟩ b a := by
  unfold numUpTo
  rw [Finset.sum_range_succ]
  unfold numTerm
  rw [dif_pos h]

theorem denUpTo_succ (n : ℕ) (h : n < 64) (b : Fin 256) (a : Fin 2048) :
    denUpTo zw Wk (n + 1) b a = denUpTo zw Wk n b a + wexp zw Wk ⟨n, h⟩ b a := by
  unfold denUpTo
  rw [Finset.sum_range_succ]
  unfold denTerm
  rw [dif_pos h]

/-- After all 64 window steps the partial sum is the numerator. -/
theorem numUpTo_all (b : Fin 256) (a : Fin 2048) : numUpTo zw Wk Wv 64 b a = num zw Wk Wv b a := by
  unfold numUpTo num
  rw [Finset.sum_range]
  refine Finset.sum_congr rfl fun w _ => ?_
  unfold numTerm
  rw [dif_pos w.isLt]

theorem denUpTo_all (b : Fin 256) (a : Fin 2048) : denUpTo zw Wk 64 b a = den zw Wk b a := by
  unfold denUpTo den
  rw [Finset.sum_range]
  refine Finset.sum_congr rfl fun w _ => ?_
  unfold denTerm
  rw [dif_pos w.isLt]

/-- The gate: the logistic function of z_c · W_qᵀ. -/
def gate (b : Fin 256) (a : Fin 2048) : EReal := Ideal.logistic (proj zc Wq b a)

/-- ε: the single-precision number nearest 1e-8, as both programs spell it. -/
def eps : EReal := Ideal.ofBits .f32 0x322BCC77#32

/-- The gated context at (b, a): gate · num / (ε + den). -/
def mix (b : Fin 256) (a : Fin 2048) : EReal :=
  gate zc Wq b a * Ideal.div (num zw Wk Wv b a) (eps + den zw Wk b a)

/-- Entry (b, l) of the result: row b of the gated context against row l of W_o. -/
def outAt (b : Fin 256) (l : Fin 512) : EReal := ∑ a : Fin 2048, mix zc zw Wq Wk Wv b a * Wo (ix2 l a)

/-- The result array. -/
def G : Mat 256 512 := fun i => outAt zc zw Wq Wk Wv Wo (i 0) (i 1)

theorem G_apply (b : Fin 256) (l : Fin 512) : G zc zw Wq Wk Wv Wo (ix2 b l) = outAt zc zw Wq Wk Wv Wo b l := rfl

end Cert.Spec

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Maxima.lean ====
/-
  The largest entry of a 256 × 2048 matrix, as the two programs take it.

  The kernel takes it in two passes: the maximum of every row (a reduction along the second axis, started from −∞),
  the 256 row maxima laid as a column, the maximum of that column (a reduction along the first axis, started from −∞),
  and the one number spread over the whole matrix. The reference takes the maximum of each matrix of a stack of 64 in
  one reduction over both matrix axes, started from −∞. A maximum is determined by its upper bounds: c bounds the
  two-pass maximum iff it bounds every row maximum iff it bounds every entry, and c bounds the one-pass maximum iff it
  bounds every entry of that matrix. So both are the matrix's largest entry (`Spec.gmax`), whatever the order in
  which the entries are visited.
-/
import proofs.«131885_j30305289240684_1_alg».proof.Proof.Spec
import proofs.«131885_j30305289240684_1_alg».proof.Proof.LibKeepdims
import Idealize.ShloMosaic.PureOps.Ideal.Laws
import Idealize.ShloMosaic.PureOps.Reduce
import Idealize.ShloMosaic.Lib.Pipeline.Value
import Idealize.ShloMosaic.Lib.ValueLayout

noncomputable section

namespace Cert.Maxima

open Idealize.ShloMosaic Idealize.ShloMosaic.ValueIdx Cert.Spec

/-- The single-precision word of −∞ is the bottom of the extended reals. -/
theorem negInf : Ideal.ofBits .f32 0xFF800000#32 = (⊥ : EReal) := by simp [Ideal.ofBits, Ideal.ieee]

/-- A bound of row b's maximum is a bound of every entry of row b. -/
theorem rowMax_le_iff (K : FVec Ideal ⟨2, ![256, 2048]⟩ .f32)
    (h : (⟨2, ![256, 2048]⟩ : Shape).Reduces [1] ⟨1, ![256]⟩) (hφ : FKind.Formats .f32)
    (hacc : (0xFF800000#32 : BitVec (FTy.f32).bits) = FKind.maximumf.neutral .f32 hφ) (b : Fin 256) (c : EReal) :
    multiReduction .maximumf [1] ⟨1, ![256]⟩ K 0xFF800000#32 h hφ hacc (ix1 b) ≤ c ↔ ∀ a : Fin 2048, K (ix2 b a) ≤ c := by
  rw [Ideal.multiReduction_maximumf_single, Finset.fold_max_le]
  have e : ∀ a : Fin 2048, h.lift (ix1 b) a = ix2 b a := fun a =>
    funext fun d => Fin.ext (by match d with | ⟨0, _⟩ => rfl | ⟨1, _⟩ => rfl)
  constructor
  · rintro ⟨-, hx⟩ a
    have := hx a (Finset.mem_univ _)
    rw [← e a]; exact this
  · intro hx
    refine ⟨?_, fun a _ => ?_⟩
    · show Ideal.ofBits .f32 0xFF800000#32 ≤ c
      rw [negInf]; exact bot_le
    · show K (h.lift (ix1 b) a) ≤ c
      rw [e a]; exact hx a

/-- A bound of a 256-entry column's maximum is a bound of every entry of the column. -/
theorem colMax_le_iff (C : FVec Ideal ⟨2, ![256, 1]⟩ .f32)
    (h : (⟨2, ![256, 1]⟩ : Shape).Reduces [0] ⟨1, ![1]⟩) (hφ : FKind.Formats .f32)
    (hacc : (0xFF800000#32 : BitVec (FTy.f32).bits) = FKind.maximumf.neutral .f32 hφ) (c : EReal) :
    multiReduction .maximumf [0] ⟨1, ![1]⟩ C 0xFF800000#32 h hφ hacc (ix1 (0 : Fin 1)) ≤ c
      ↔ ∀ b : Fin 256, C (ix2 b (0 : Fin 1)) ≤ c := by
  rw [Ideal.multiReduction_maximumf_single, Finset.fold_max_le]
  have e : ∀ b : Fin 256, h.lift (ix1 (0 : Fin 1)) b = ix2 b (0 : Fin 1) := fun b =>
    funext fun d => Fin.ext (by match d with | ⟨0, _⟩ => rfl | ⟨1, _⟩ => rfl)
  constructor
  · rintro ⟨-, hx⟩ b
    have := hx b (Finset.mem_univ _)
    rw [← e b]; exact this
  · intro hx
    refine ⟨?_, fun b _ => ?_⟩
    · show Ideal.ofBits .f32 0xFF800000#32 ≤ c
      rw [negInf]; exact bot_le
    · show C (h.lift (ix1 (0 : Fin 1)) b) ≤ c
      rw [e b]; exact hx b

/-- THE KERNEL'S MAXIMUM: row maxima, their column, its maximum, spread over the matrix — at every entry (b, a) it is
    the matrix's largest entry. -/
theorem twoPass (K : FVec Ideal ⟨2, ![256, 2048]⟩ .f32)
    (hr1 : (⟨2, ![256, 2048]⟩ : Shape).Reduces [1] ⟨1, ![256]⟩) (hφ1 : FKind.Formats .f32)
    (hacc1 : (0xFF800000#32 : BitVec (FTy.f32).bits) = FKind.maximumf.neutral .f32 hφ1)
    (hc1 : (⟨1, ![256]⟩ : Shape).ShapeCasts ⟨2, ![256, 1]⟩)
    (hr0 : (⟨2, ![256, 1]⟩ : Shape).Reduces [0] ⟨1, ![1]⟩) (hφ0 : FKind.Formats .f32)
    (hacc0 : (0xFF800000#32 : BitVec (FTy.f32).bits) = FKind.maximumf.neutral .f32 hφ0)
    (hc2 : (⟨1, ![1]⟩ : Shape).ShapeCasts ⟨2, ![1, 1]⟩)
    (hb : (⟨2, ![1, 1]⟩ : Shape).Broadcasts ⟨2, ![256, 2048]⟩) (b : Fin 256) (a : Fin 2048) :
    broadcastTo ⟨2, ![256, 2048]⟩
        (shapeCast ⟨2, ![1, 1]⟩
          (multiReduction .maximumf [0] ⟨1, ![1]⟩
            (shapeCast ⟨2, ![256, 1]⟩ (multiReduction .maximumf [1] ⟨1, ![256]⟩ K 0xFF800000#32 hr1 hφ1 hacc1) hc1)
            0xFF800000#32 hr0 hφ0 hacc0) hc2) hb (ix2 b a)
      = gmax fun b' a' => K (ix2 b' a') := by
  rw [broadcastTo_apply _ hb (ix2 b a) (ix2 (0 : Fin 1) (0 : Fin 1))
    (fun ax => by match ax with | ⟨0, _⟩ => rfl | ⟨1, _⟩ => rfl)]
  rw [Cert.Keepdims.shapeCast_a_a1_apply _ hc2 (0 : Fin 1) (0 : Fin 1)]
  refine eq_gmax _ _ fun c => ?_
  rw [colMax_le_iff]
  refine forall_congr' fun b' => ?_
  rw [Cert.Keepdims.shapeCast_a_a1_apply _ hc1 b' (0 : Fin 1), rowMax_le_iff]

/-- THE REFERENCE'S MAXIMUM: one reduction of a stack of 64 matrices over both matrix axes, started from −∞ — at
    window step w it is the largest entry of matrix w. -/
theorem onePass (x : FVec Ideal ⟨3, ![64, 256, 2048]⟩ .f32) (init : FVec Ideal ⟨0, ![]⟩ .f32)
    (hinit : ∀ i, init i = (⊥ : EReal))
    (h : (⟨3, ![64, 256, 2048]⟩ : Shape).ReducesTo [1, 2] ⟨1, ![64]⟩) (hu : 0 < (⟨0, ![]⟩ : Shape).numel) (w : Fin 64) :
    Host.reduce FloatOps.maximumf x init h hu (ix1 w) = gmax fun b a => x (ix3 w b a) := by
  refine eq_gmax _ _ fun c => ?_
  rw [Host.reduce_eq_fold]
  show Finset.fold max (init (Shape.Idx.first hu)) x _ ≤ c ↔ _
  rw [Finset.fold_max_le, hinit]
  constructor
  · rintro ⟨-, hx⟩ b a
    refine hx (ix3 w b a) (Finset.mem_filter.2 ⟨Finset.mem_univ _, ?_⟩)
    funext d
    match d with
    | ⟨0, _⟩ => exact Fin.ext (h.drop_apply_val_of_eq (ix3 w b a) 0 0)
  · intro hx
    refine ⟨bot_le, fun i hi => ?_⟩
    have hd : h.drop i = ix1 w := (Finset.mem_filter.1 hi).2
    have h0 : (i 0).val = w.val := (h.drop_apply_val_of_eq i 0 0).symm.trans (congrArg Fin.val (congrFun hd 0))
    have ei : i = ix3 w (i 1) (i 2) := funext fun d => Fin.ext (by
      match d with
      | ⟨0, _⟩ => exact h0
      | ⟨1, _⟩ => rfl
      | ⟨2, _⟩ => rfl)
    rw [ei]; exact hx (i 1) (i 2)

end Cert.Maxima

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Payload.lean ====
/-
  The arithmetic of one run of the kernel's body, read entry by entry on the extended reals.

  A change of float format is the identity there, so each matrix-unit product of a [256, 512] block with the transpose
  of a [2048, 512] matrix is, at (b, a), the sum over l of block (b, l) · matrix (a, l); the window block arrives with
  a leading unit axis, which only renames its entries. The shifted exponential subtracts from every entry of the
  step's K matrix that matrix's largest entry, taken in two passes. The stores into the two accumulators add the
  step's term to what was loaded; the gate is the logistic function of z_c · W_qᵀ; and the output block is, at (b, l),
  the sum over a of gate (b, a) · (num (b, a) / (ε + den (b, a))) · W_o (l, a).
-/
import proofs.«131885_j30305289240684_1_alg».proof.Proof.Gen.KernelIdeal.Skeleton
import proofs.«131885_j30305289240684_1_alg».proof.Proof.Spec
import proofs.«131885_j30305289240684_1_alg».proof.Proof.Maxima
import proofs.«131885_j30305289240684_1_alg».proof.Proof.LibContractPlain
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Spec

/-- A [256, 512] left operand against the transpose of a [2048, 512] matrix, accumulated into zeros: at (b, a) the sum
    over l of left (b, l) · matrix (a, l). -/
theorem rowsProduct (A : FVec Ideal S256x512 .bf16) (W : Vec Ideal S2048x512 .f32) (b : Fin 256) (a : Fin 2048) :
    matmul dot_S256x512_S512x2048_S256x2048_1_0_0_1_n_n none A
        (transpose S512x2048 [1, 0] (truncf .bf16 W bitsLt_bf16_f32) transposes_S2048x512_p1_0_S512x2048)
        (constant S256x2048 .f32 0x00000000#32) (ix2 b a)
      = ∑ l : Fin 512, A (ix2 b l) * W (ix2 a l) := by
  refine (Cert.Lib.ContractPlain.matmulZero_apply dot_S256x512_S512x2048_S256x2048_1_0_0_1_n_n rfl none A _ b a).trans ?_
  refine Finset.sum_congr rfl fun l _ => ?_
  rw [transpose_ix2_apply]
  rfl

/-- The window block with its leading unit axis dropped. -/
theorem pay5_apply (v3 : Vec Ideal S1x256x512 .f32) (b : Fin 256) (l : Fin 512) :
    k0_pay5 (F := Ideal) v3 (ix2 b l) = v3 (ix3 (0 : Fin 1) b l) := by
  unfold k0_pay5
  exact shapeCast_1ab_ab_apply v3 _ b l

/-- The window block against the transpose of a projection matrix, as the body computes it. -/
abbrev blockProj (v3 : Vec Ideal S1x256x512 .f32) (W : Vec Ideal S2048x512 .f32) : FVec Ideal S256x2048 .f32 :=
  matmul dot_S256x512_S512x2048_S256x2048_1_0_0_1_n_n none (k0_pay5 v3)
    (transpose S512x2048 [1, 0] (truncf .bf16 W bitsLt_bf16_f32) transposes_S2048x512_p1_0_S512x2048)
    (constant S256x2048 .f32 0x00000000#32)

theorem blockProj_apply (v3 : Vec Ideal S1x256x512 .f32) (W : Vec Ideal S2048x512 .f32) (b : Fin 256) (a : Fin 2048) :
    blockProj v3 W (ix2 b a) = ∑ l : Fin 512, v3 (ix3 (0 : Fin 1) b l) * W (ix2 a l) := by
  unfold blockProj
  rw [rowsProduct]
  refine Finset.sum_congr rfl fun l _ => ?_
  rw [pay5_apply]

/-- The shifted exponential of a matrix: every entry less the largest entry (two passes), exponentiated. -/
theorem expShift_apply (K : FVec Ideal S256x2048 .f32) (b : Fin 256) (a : Fin 2048) :
    exp (subf K (broadcastTo S256x2048 (shapeCast S1x1 (multiReduction .maximumf [0] S1
        (shapeCast S256x1 (multiReduction .maximumf [1] S256 K 0xFF800000#32 reduces_S256x2048_S256 (.inl rfl) rfl)
          shapeCasts_S256_S256x1) 0xFF800000#32 reduces_S256x1_S1 (.inl rfl) rfl) shapeCasts_S1_S1x1)
        broadcasts_S1x1_S256x2048)) (ix2 b a)
      = Ideal.exp (K (ix2 b a) - gmax fun b' a' => K (ix2 b' a')) :=
  congrArg (fun t => Ideal.exp (K (ix2 b a) - t)) (Cert.Maxima.twoPass K _ _ _ _ _ _ _ _ _ b a)

/-- The step's exponential factor E at (b, a). -/
theorem pay6_apply (v3 : Vec Ideal S1x256x512 .f32) (v6 : Vec Ideal S2048x512 .f32) (b : Fin 256) (a : Fin 2048) :
    k0_pay6 (F := Ideal) v3 v6 (ix2 b a)
      = Ideal.exp ((∑ l : Fin 512, v3 (ix3 (0 : Fin 1) b l) * v6 (ix2 a l))
          - gmax fun b' a' => ∑ l : Fin 512, v3 (ix3 (0 : Fin 1) b' l) * v6 (ix2 a' l)) := by
  unfold k0_pay6
  refine (expShift_apply (blockProj v3 v6) b a).trans ?_
  simp only [blockProj_apply]

/-- The numerator's store: what was loaded plus E · V, entry by entry. -/
theorem pay7_apply (v3 : Vec Ideal S1x256x512 .f32) (v6 v8 : Vec Ideal S2048x512 .f32) (v21 : Vec Ideal S256x2048 .f32)
    (b : Fin 256) (a : Fin 2048) :
    k0_pay7 (F := Ideal) v3 v6 v8 v21 (ix2 b a)
      = v21 (ix2 b a) + k0_pay6 (F := Ideal) v3 v6 (ix2 b a) * ∑ l : Fin 512, v3 (ix3 (0 : Fin 1) b l) * v8 (ix2 a l) := by
  have e : k0_pay7 (F := Ideal) v3 v6 v8 v21 = addf v21 (mulf (k0_pay6 v3 v6) (blockProj v3 v8)) := by
    unfold k0_pay7
    exact shapeCast_self _ _
  rw [e]
  exact congrArg (fun t => v21 (ix2 b a) + k0_pay6 (F := Ideal) v3 v6 (ix2 b a) * t) (blockProj_apply v3 v8 b a)

/-- The denominator's store: what was loaded plus E. -/
theorem pay8_apply (v3 : Vec Ideal S1x256x512 .f32) (v6 : Vec Ideal S2048x512 .f32) (v27 : Vec Ideal S256x2048 .f32)
    (b : Fin 256) (a : Fin 2048) :
    k0_pay8 (F := Ideal) v3 v6 v27 (ix2 b a) = v27 (ix2 b a) + k0_pay6 (F := Ideal) v3 v6 (ix2 b a) := by
  have e : k0_pay8 (F := Ideal) v3 v6 v27 = addf v27 (k0_pay6 v3 v6) := by
    unfold k0_pay8
    exact shapeCast_self _ _
  rw [e]
  rfl

/-- The zeros stored into the numerator's buffer at the first step. -/
theorem pay3_apply (j : S256x2048.Idx) : k0_pay3 (F := Ideal) j = 0 := by
  have e : k0_pay3 (F := Ideal) = broadcast S256x2048 (Scalar.ofBits .f32 0x00000000#32) := by
    unfold k0_pay3
    exact shapeCast_self _ _
  rw [e]
  show Ideal.ofBits .f32 0x00000000#32 = 0
  exact Ideal.ofBits_zero_f32

/-- The zeros stored into the denominator's buffer at the first step. -/
theorem pay4_apply (j : S256x2048.Idx) : k0_pay4 (F := Ideal) j = 0 := by
  have e : k0_pay4 (F := Ideal) = broadcast S256x2048 (Scalar.ofBits .f32 0x00000000#32) := by
    unfold k0_pay4
    exact shapeCast_self _ _
  rw [e]
  show Ideal.ofBits .f32 0x00000000#32 = 0
  exact Ideal.ofBits_zero_f32

/-- The gate: the logistic function of z_c · W_qᵀ. -/
theorem pay2_apply (v35 : Vec Ideal S256x512 .f32) (v37 : Vec Ideal S2048x512 .f32) (b : Fin 256) (a : Fin 2048) :
    k0_pay2 (F := Ideal) v35 v37 (ix2 b a) = Ideal.logistic (∑ l : Fin 512, v35 (ix2 b l) * v37 (ix2 a l)) := by
  have e : k0_pay2 (F := Ideal) v35 v37 = logistic (matmul dot_S256x512_S512x2048_S256x2048_1_0_0_1_n_n none
      (truncf .bf16 v35 bitsLt_bf16_f32)
      (transpose S512x2048 [1, 0] (truncf .bf16 v37 bitsLt_bf16_f32) transposes_S2048x512_p1_0_S512x2048)
      (constant S256x2048 .f32 0x00000000#32)) := by
    unfold k0_pay2
    exact shapeCast_self _ _
  rw [e]
  exact congrArg Ideal.logistic (rowsProduct (truncf .bf16 v35 bitsLt_bf16_f32) v37 b a)

/-- The output block: at (b, l) the sum over a of gate · (num / (ε + den)) at (b, a) times W_o (l, a). -/
theorem pay1_apply (v35 v36 v40 : Vec Ideal S256x2048 .f32) (v43 : Vec Ideal S512x2048 .f32) (b : Fin 256) (l : Fin 512) :
    k0_pay1 (F := Ideal) v35 v36 v40 v43 (ix2 b l)
      = ∑ a : Fin 2048, (v40 (ix2 b a) * Ideal.div (v35 (ix2 b a)) (eps + v36 (ix2 b a))) * v43 (ix2 l a) := by
  unfold k0_pay1
  refine (Cert.Lib.ContractPlain.matmulZero_apply dot_S256x2048_S2048x512_S256x512_1_0_0_1_n_n rfl none _ _ b l).trans ?_
  refine Finset.sum_congr rfl fun a _ => ?_
  rw [transpose_ix2_apply]
  rfl

end Cert.KernelIdeal.Payload

end
-- ==== Proof.Chain.lean ====
/-
  What the kernel's three carried buffers hold after each window step, and what it writes back at the last one.

  The window's block at step t is matrix t of the stack z_w (with a leading unit axis); the other five inputs are staged
  whole at every step. So at step t the body's exponential factor is E_t, its products are E_t ∘ V_t, and by induction
  on the step the numerator's buffer holds Σ_{w ≤ t} E_w ∘ V_w, the denominator's Σ_{w ≤ t} E_w, and the third buffer
  the gate, stored at step 0 and only carried afterwards. At the last step the output block is the result matrix.
-/
import proofs.«131885_j30305289240684_1_alg».proof.Proof.Gen.KernelIdeal.Frame
import proofs.«131885_j30305289240684_1_alg».proof.Proof.Pieces
import proofs.«131885_j30305289240684_1_alg».proof.Proof.Payload
import proofs.«131885_j30305289240684_1_alg».proof.Proof.Spec

noncomputable section

namespace Cert.KernelIdeal.Chain

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (c : Dev nD)

/-! ## The argument arrays, as the matrices of the specification -/

abbrev aZc : Mat 256 512 := V m c main_arg0
abbrev aZw : Cube 64 256 512 := V m c main_arg1
abbrev aWq : Mat 2048 512 := V m c main_arg2
abbrev aWk : Mat 2048 512 := V m c main_arg3
abbrev aWv : Mat 2048 512 := V m c main_arg4
abbrev aWo : Mat 512 2048 := V m c main_arg5

/-- A grid point is a window step. -/
def step (t : Fin cfg0.N) : Fin 64 := ⟨t.val, lt_of_lt_of_eq t.isLt N_0⟩

/-! ## The blocks the body is handed at step t -/

/-- The printed index maps, decided over the grid: the window's block index is the step on the stack axis, every other
    block index is zero. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem blk0_apply (t : Fin cfg0.N) (b : Fin 256) (l : Fin 512) :
    (iblk m c 0 t : Vec Ideal S256x512 .f32) (ix2 b l) = aZc m c (ix2 b l) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 256 + 1 * b.val = b.val; rw [e0]; omega
  | ⟨1, _⟩ => show win0_0.index t 1 * 512 + 1 * l.val = l.val; rw [e1]; omega

theorem blk1_apply (t : Fin cfg0.N) (b : Fin 256) (l : Fin 512) :
    (iblk m c 1 t : Vec Ideal S1x256x512 .f32) (ix3 (0 : Fin 1) b l) = aZw m c (ix3 (step t) b l) := by
  obtain ⟨-, -, e0, e1, e2, -⟩ := idx_facts t
  unfold iblk
  rw [View.read_apply]
  show V m c main_arg1 _ = V m c main_arg1 _
  congr 1
  funext a
  apply Fin.ext
  match a with
  | ⟨0, _⟩ => show win0_1.index t 0 * 1 + 1 * 0 = t.val; rw [e0]; omega
  | ⟨1, _⟩ => show win0_1.index t 1 * 256 + 1 * b.val = b.val; rw [e1]; omega
  | ⟨2, _⟩ => show win0_1.index t 2 * 512 + 1 * l.val = l.val; rw [e2]; omega

theorem blk2_apply (t : Fin cfg0.N) (a : Fin 2048) (l : Fin 512) :
    (iblk m c 2 t : Vec Ideal S2048x512 .f32) (ix2 a l) = aWq m c (ix2 a l) := by
  obtain ⟨-, -, -, -, -, e0, e1, -⟩ := idx_facts t
  unfold iblk
  rw [View.read_apply]
  show V m c main_arg2 _ = V m c main_arg2 _
  congr 1
  funext d
  apply Fin.ext
  match d with
  | ⟨0, _⟩ => show win0_2.index t 0 * 2048 + 1 * a.val = a.val; rw [e0]; omega
  | ⟨1, _⟩ => show win0_2.index t 1 * 512 + 1 * l.val = l.val; rw [e1]; omega

theorem blk3_apply (t : Fin cfg0.N) (a : Fin 2048) (l : Fin 512) :
    (iblk m c 3 t : Vec Ideal S2048x512 .f32) (ix2 a l) = aWk m c (ix2 a l) := by
  obtain ⟨-, -, -, -, -, -, -, e0, e1, -⟩ := idx_facts t
  unfold iblk
  rw [View.read_apply]
  show V m c main_arg3 _ = V m c main_arg3 _
  congr 1
  funext d
  apply Fin.ext
  match d with
  | ⟨0, _⟩ => show win0_3.index t 0 * 2048 + 1 * a.val = a.val; rw [e0]; omega
  | ⟨1, _⟩ => show win0_3.index t 1 * 512 + 1 * l.val = l.val; rw [e1]; omega

theorem blk4_apply (t : Fin cfg0.N) (a : Fin 2048) (l : Fin 512) :
    (iblk m c 4 t : Vec Ideal S2048x512 .f32) (ix2 a l) = aWv m c (ix2 a l) := by
  obtain ⟨-, -, -, -, -, -, -, -, -, e0, e1, -⟩ := idx_facts t
  unfold iblk
  rw [View.read_apply]
  show V m c main_arg4 _ = V m c main_arg4 _
  congr 1
  funext d
  apply Fin.ext
  match d with
  | ⟨0, _⟩ => show win0_4.index t 0 * 2048 + 1 * a.val = a.val; rw [e0]; omega
  | ⟨1, _⟩ => show win0_4.index t 1 * 512 + 1 * l.val = l.val; rw [e1]; omega

theorem blk5_apply (t : Fin cfg0.N) (l : Fin 512) (a : Fin 2048) :
    (iblk m c 5 t : Vec Ideal S512x2048 .f32) (ix2 l a) = aWo m c (ix2 l a) := by
  obtain ⟨-, -, -, -, -, -, -, -, -, -, -, e0, e1⟩ := idx_facts t
  unfold iblk
  rw [View.read_apply]
  show V m c main_arg5 _ = V m c main_arg5 _
  congr 1
  funext d
  apply Fin.ext
  match d with
  | ⟨0, _⟩ => show win0_5.index t 0 * 512 + 1 * l.val = l.val; rw [e0]; omega
  | ⟨1, _⟩ => show win0_5.index t 1 * 2048 + 1 * a.val = a.val; rw [e1]; omega

/-! ## One step's stores, entry by entry, in the specification's words -/

/-- The step's exponential factor is E_t. -/
theorem E_eq (t : Fin cfg0.N) (b : Fin 256) (a : Fin 2048) :
    k0_pay6 (F := Ideal) (iblk m c 1 t) (iblk m c 3 t) (ix2 b a) = wexp (aZw m c) (aWk m c) (step t) b a := by
  refine (Payload.pay6_apply (iblk m c 1 t) (iblk m c 3 t) b a).trans ?_
  unfold wexp projW
  simp only [blk1_apply, blk3_apply]

/-- The numerator's store adds E_t · V_t to what it loaded. -/
theorem num_store (t : Fin cfg0.N) (acc : Vec Ideal S256x2048 .f32) (b : Fin 256) (a : Fin 2048) :
    k0_pay7 (F := Ideal) (iblk m c 1 t) (iblk m c 3 t) (iblk m c 4 t) acc (ix2 b a)
      = acc (ix2 b a) + wexp (aZw m c) (aWk m c) (step t) b a * projW (aZw m c) (aWv m c) (step t) b a := by
  refine (Payload.pay7_apply (iblk m c 1 t) (iblk m c 3 t) (iblk m c 4 t) acc b a).trans ?_
  rw [E_eq]
  unfold projW
  simp only [blk1_apply, blk4_apply]

/-- The denominator's store adds E_t to what it loaded. -/
theorem den_store (t : Fin cfg0.N) (acc : Vec Ideal S256x2048 .f32) (b : Fin 256) (a : Fin 2048) :
    k0_pay8 (F := Ideal) (iblk m c 1 t) (iblk m c 3 t) acc (ix2 b a)
      = acc (ix2 b a) + wexp (aZw m c) (aWk m c) (step t) b a := by
  refine (Payload.pay8_apply (iblk m c 1 t) (iblk m c 3 t) acc b a).trans ?_
  rw [E_eq]

/-- The first step's third store is the gate. -/
theorem gate_store (t : Fin cfg0.N) (b : Fin 256) (a : Fin 2048) :
    k0_pay2 (F := Ideal) (iblk m c 0 t) (iblk m c 2 t) (ix2 b a) = gate (aZc m c) (aWq m c) b a := by
  refine (Payload.pay2_apply (iblk m c 0 t) (iblk m c 2 t) b a).trans ?_
  unfold gate proj
  simp only [blk0_apply, blk2_apply]

/-! ## The three kinds of step, over what the step before left -/

/-- What the step before left in the output block and the three carried buffers. -/
abbrev prev (t : Fin cfg0.N) := outsAt0 m c (t.val - 1) (Nat.lt_of_le_of_lt (Nat.sub_le _ _) t.isLt)

theorem first_step (t : Fin cfg0.N) (h0 : t.val % 64 = 0) (h1 : ¬t.val % 64 = 63) :
    (outsAt0 m c t.val t.isLt).2.1 = k0_pay7 (iblk m c 1 t) (iblk m c 3 t) (iblk m c 4 t) (k0_pay3 (F := Ideal))
    ∧ (outsAt0 m c t.val t.isLt).2.2.1 = k0_pay8 (iblk m c 1 t) (iblk m c 3 t) (k0_pay4 (F := Ideal))
    ∧ (outsAt0 m c t.val t.isLt).2.2.2 = k0_pay2 (iblk m c 0 t) (iblk m c 2 t) := by
  rw [outsAt0_A m c t h0 h1]
  dsimp only
  exact ⟨Pieces.first_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h)),
    Pieces.first_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h)),
    Pieces.first_gate (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h))⟩

theorem middle_step (t : Fin cfg0.N) (h0 : ¬t.val % 64 = 0) (h1 : ¬t.val % 64 = 63) :
    (outsAt0 m c t.val t.isLt).2.1 = k0_pay7 (iblk m c 1 t) (iblk m c 3 t) (iblk m c 4 t) (prev m c t).2.1
    ∧ (outsAt0 m c t.val t.isLt).2.2.1 = k0_pay8 (iblk m c 1 t) (iblk m c 3 t) (prev m c t).2.2.1
    ∧ (outsAt0 m c t.val t.isLt).2.2.2 = (prev m c t).2.2.2 := by
  rw [outsAt0_B m c t h0 h1]
  dsimp only
  exact ⟨Pieces.middle_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2 (fun h => h0 ((hcond0_0 t).mp h)) (fun h => h1 ((hcond0_1 t).mp h)),
    Pieces.middle_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2 (fun h => h0 ((hcond0_0 t).mp h)) (fun h => h1 ((hcond0_1 t).mp h)), rfl⟩

theorem last_step (t : Fin cfg0.N) (h0 : ¬t.val % 64 = 0) (h1 : t.val % 64 = 63) :
    (outsAt0 m c t.val t.isLt).1
        = k0_pay1 (outsAt0 m c t.val t.isLt).2.1 (outsAt0 m c t.val t.isLt).2.2.1 (outsAt0 m c t.val t.isLt).2.2.2 (iblk m c 5 t)
    ∧ (outsAt0 m c t.val t.isLt).2.1 = k0_pay7 (iblk m c 1 t) (iblk m c 3 t) (iblk m c 4 t) (prev m c t).2.1
    ∧ (outsAt0 m c t.val t.isLt).2.2.1 = k0_pay8 (iblk m c 1 t) (iblk m c 3 t) (prev m c t).2.2.1
    ∧ (outsAt0 m c t.val t.isLt).2.2.2 = (prev m c t).2.2.2 := by
  rw [outsAt0_C m c t h0 h1]
  dsimp only
  refine ⟨?_, Pieces.last_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2 (fun h => h0 ((hcond0_0 t).mp h)) ((hcond0_1 t).mpr h1),
    Pieces.last_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2 (fun h => h0 ((hcond0_0 t).mp h)) ((hcond0_1 t).mpr h1), rfl⟩
  rw [Pieces.last_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2 (fun h => h0 ((hcond0_0 t).mp h)) ((hcond0_1 t).mpr h1),
    Pieces.last_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2 (fun h => h0 ((hcond0_0 t).mp h)) ((hcond0_1 t).mpr h1)]
  exact Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2 (fun h => h0 ((hcond0_0 t).mp h)) ((hcond0_1 t).mpr h1)

/-! ## The carried buffers after every step -/

/-- After step n the numerator's buffer holds the sum over the first n + 1 window steps, the denominator's likewise,
    and the third buffer the gate: by induction on the step. -/
theorem carried (n : ℕ) (hn : n < cfg0.N) :
    (∀ b a, (outsAt0 m c n hn).2.1 (ix2 b a) = numUpTo (aZw m c) (aWk m c) (aWv m c) (n + 1) b a)
    ∧ (∀ b a, (outsAt0 m c n hn).2.2.1 (ix2 b a) = denUpTo (aZw m c) (aWk m c) (n + 1) b a)
    ∧ (∀ b a, (outsAt0 m c n hn).2.2.2 (ix2 b a) = gate (aZc m c) (aWq m c) b a) := by
  have hN : cfg0.N = 64 := N_0
  induction n with
  | zero =>
    obtain ⟨e0, e1, e2⟩ := first_step m c ⟨0, hn⟩ rfl (show ¬((0 : ℕ) % 64 = 63) from by decide)
    refine ⟨fun b a => ?_, fun b a => ?_, fun b a => ?_⟩
    · refine (congrFun e0 (ix2 b a)).trans ?_
      refine (num_store m c ⟨0, hn⟩ (k0_pay3 (F := Ideal)) b a).trans ?_
      rw [Payload.pay3_apply, numUpTo_succ _ _ _ 0 (by decide) b a, numUpTo_zero]
      rfl
    · refine (congrFun e1 (ix2 b a)).trans ?_
      refine (den_store m c ⟨0, hn⟩ (k0_pay4 (F := Ideal)) b a).trans ?_
      rw [Payload.pay4_apply, denUpTo_succ _ _ 0 (by decide) b a, denUpTo_zero]
      rfl
    · refine (congrFun e2 (ix2 b a)).trans ?_
      exact gate_store m c ⟨0, hn⟩ b a
  | succ n ih =>
    have hlt : n + 1 < 64 := lt_of_lt_of_eq hn hN
    obtain ⟨i0, i1, i2⟩ := ih (Nat.lt_of_succ_lt hn)
    have h0 : ¬(⟨n + 1, hn⟩ : Fin cfg0.N).val % 64 = 0 := by dsimp only; omega
    have key : (outsAt0 m c (n + 1) hn).2.1 = k0_pay7 (iblk m c 1 ⟨n + 1, hn⟩) (iblk m c 3 ⟨n + 1, hn⟩) (iblk m c 4 ⟨n + 1, hn⟩) (prev m c ⟨n + 1, hn⟩).2.1
        ∧ (outsAt0 m c (n + 1) hn).2.2.1 = k0_pay8 (iblk m c 1 ⟨n + 1, hn⟩) (iblk m c 3 ⟨n + 1, hn⟩) (prev m c ⟨n + 1, hn⟩).2.2.1
        ∧ (outsAt0 m c (n + 1) hn).2.2.2 = (prev m c ⟨n + 1, hn⟩).2.2.2 := by
      by_cases h1 : (⟨n + 1, hn⟩ : Fin cfg0.N).val % 64 = 63
      · exact (last_step m c ⟨n + 1, hn⟩ h0 h1).2
      · exact middle_step m c ⟨n + 1, hn⟩ h0 h1
    obtain ⟨e0, e1, e2⟩ := key
    refine ⟨fun b a => ?_, fun b a => ?_, fun b a => ?_⟩
    · refine (congrFun e0 (ix2 b a)).trans ?_
      refine (num_store m c ⟨n + 1, hn⟩ (prev m c ⟨n + 1, hn⟩).2.1 b a).trans ?_
      rw [numUpTo_succ _ _ _ (n + 1) hlt b a]
      exact congrArg (fun s => s + wexp (aZw m c) (aWk m c) ⟨n + 1, hlt⟩ b a * projW (aZw m c) (aWv m c) ⟨n + 1, hlt⟩ b a) (i0 b a)
    · refine (congrFun e1 (ix2 b a)).trans ?_
      refine (den_store m c ⟨n + 1, hn⟩ (prev m c ⟨n + 1, hn⟩).2.2.1 b a).trans ?_
      rw [denUpTo_succ _ _ (n + 1) hlt b a]
      exact congrArg (fun s => s + wexp (aZw m c) (aWk m c) ⟨n + 1, hlt⟩ b a) (i1 b a)
    · refine (congrFun e2 (ix2 b a)).trans ?_
      exact i2 b a

/-! ## The output block at the last step -/

/-- At the last step the output block is the result matrix: its product with W_oᵀ runs over the gate the first step
    stored and the two sums the 64 steps accumulated. -/
theorem last_block (t : Fin cfg0.N) (h1 : t.val % 64 = 63) (b : Fin 256) (l : Fin 512) :
    (outsAt0 m c t.val t.isLt).1 (ix2 b l)
      = G (aZc m c) (aZw m c) (aWq m c) (aWk m c) (aWv m c) (aWo m c) (ix2 b l) := by
  have hN : cfg0.N = 64 := N_0
  have h0 : ¬t.val % 64 = 0 := by omega
  have hv : t.val + 1 = 64 := by have := t.isLt; omega
  obtain ⟨eo, -⟩ := last_step m c t h0 h1
  obtain ⟨i0, i1, i2⟩ := carried m c t.val t.isLt
  refine (congrFun eo (ix2 b l)).trans ?_
  refine (Payload.pay1_apply (outsAt0 m c t.val t.isLt).2.1 (outsAt0 m c t.val t.isLt).2.2.1
    (outsAt0 m c t.val t.isLt).2.2.2 (iblk m c 5 t) b l).trans ?_
  rw [G_apply]
  unfold outAt
  refine Finset.sum_congr rfl fun a _ => ?_
  rw [i0 b a, i1 b a, i2 b a, blk5_apply, hv, numUpTo_all, denUpTo_all]
  rfl

end Cert.KernelIdeal.Chain

end
-- ==== Proof.RunValue.lean ====
/-
  The kernel's result array after the run.

  The output window's one block is the whole [256, 512] array, and the pipeline writes it back once, after the last
  window step. What is written back is the output block the last step stored, which is the result matrix; every entry of
  the array lies in that one block, so the array ends holding the result matrix.
-/
import proofs.«131885_j30305289240684_1_alg».proof.Proof.Gen.KernelIdeal.Value
import proofs.«131885_j30305289240684_1_alg».proof.Proof.Chain

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KernelIdeal.Chain

variable (m : (ℓ : Loc nD τ sig) → Buf (Elt Ideal) ℓ) (ρ : Dev nD → PrngReg)

/-- The result matrix of the argument arrays, as contents of the result array. -/
abbrev result (c : Dev nD) : Buf (Elt Ideal) ((c : Thread nD τ).loc main_v0) :=
  G (aZc m c) (aZw m c) (aWq m c) (aWk m c) (aWv m c) (aWo m c)

/-- The output window's block index is zero on both axes at every step. -/
theorem idx_out : ∀ t : Fin cfg0.N, win0_6.index t (0 : Fin 2) = 0 ∧ win0_6.index t (1 : Fin 2) = 0 :=
  (by decide +kernel : ∀ t : Fin grid0.N, _)

/-- The one write-back, after the last step, writes the result matrix: the block read through zero offsets is the
    array. -/
theorem flushed_eq (c : Dev nD) (t : Fin cfg0.N) (hf : (cfg0.win 6).flush t = true) :
    (dats m 0 c).flushed 6 t = ((cfg0.win 6).blk t).view.read (Elt Ideal) (result m c) := by
  have h63 : t.val % 64 = 63 := (flush0_6 t).mp hf
  obtain ⟨e0, e1⟩ := idx_out t
  show (cfg0.win 6).cut (grid0.coords t) ((dats m 0 c).after 6 t) = _
  rw [after0_6]
  funext j
  show (outsAt0 m c t.val t.isLt).1 j = result m c (((cfg0.win 6).blk t).view.emb j)
  obtain ⟨b, l, rfl⟩ : ∃ (b : Fin 256) (l : Fin 512), j = ix2 b l := ⟨j 0, j 1, eq_ix2 j⟩
  have hemb : ((cfg0.win 6).blk t).view.emb (ix2 b l) = ix2 b l := by
    funext a
    apply Fin.ext
    match a with
    | ⟨0, _⟩ => show win0_6.index t 0 * 256 + 1 * b.val = b.val; rw [e0]; omega
    | ⟨1, _⟩ => show win0_6.index t 1 * 512 + 1 * l.val = l.val; rw [e1]; omega
  rw [hemb]
  exact last_block m c t h63 b l

/-- An index of the array is in step t's block iff each coordinate is in the block's range on its axis. -/
theorem mem_blk (t : Fin cfg0.N) (i : S256x512.Idx) :
    i ∈ ((cfg0.win 6).blk t).view.set
      ↔ ∀ a : Fin 2, win0_6.index t a * S256x512.size a ≤ (i a).val
          ∧ (i a).val < win0_6.index t a * S256x512.size a + S256x512.size a := by
  show i ∈ ((View.whole main_v0).slice (win0_6.rect t)).set ↔ _
  rw [View.set_slice_whole, Rect.mem_set_unit]
  exact Iff.rfl

/-- So the result array ends holding the result matrix: the last step's block covers it. -/
theorem final (c : Dev nD) : (dats m 0 c).arrAt 6 cfg0.N = result m c :=
  (dats m 0 c).arrAt_eq_of_cover 6 (result m c) (flushed_eq m c) fun i => by
    have hN : cfg0.N = 64 := N_0
    obtain ⟨t, ht⟩ : ∃ t : Fin cfg0.N, t.val = 63 := ⟨⟨63, by omega⟩, rfl⟩
    obtain ⟨e0, e1⟩ := idx_out t
    refine ⟨t, (flush0_6 t).mpr (by omega), ?_⟩
    rw [mem_blk]
    intro a
    have h0 : (i 0).val < 256 := (i 0).isLt
    have h1 : (i 1).val < 512 := (i 1).isLt
    match a with
    | ⟨0, _⟩ =>
      show win0_6.index t 0 * 256 ≤ (i 0).val ∧ (i 0).val < win0_6.index t 0 * 256 + 256
      rw [e0]; omega
    | ⟨1, _⟩ =>
      show win0_6.index t 1 * 512 ≤ (i 1).val ∧ (i 1).val < win0_6.index t 1 * 512 + 512
      rw [e1]; omega

/-- The run, read: the result array at the result matrix, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.RunValue

end
-- ==== Proof.RefValue.lean ====
/-
  The reference, read entry by entry on the extended reals, is the specification.

  Its gate is spelt 1 / (1 + exp (−q)), which is the logistic function of q by definition; its two stacked products are,
  at (w, b, a), the sums over l of z_w (w, b, l) · W (a, l); its per-step maximum is one reduction over both matrix
  axes, started from −∞, which is the matrix's largest entry; its two sums over the window axis start from zero; and its
  last product runs over the transposed output matrix, which only renames W_o's entries.
-/
import proofs.«131885_j30305289240684_1_alg».proof.Proof.Gen.ReferenceIdeal.Read
import proofs.«131885_j30305289240684_1_alg».proof.Proof.Spec
import proofs.«131885_j30305289240684_1_alg».proof.Proof.Maxima

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Spec

variable (x0 : (⟨S256x512, .f32⟩ : BufTy).Contents (Elt Ideal)) (x1 : (⟨S64x256x512, .f32⟩ : BufTy).Contents (Elt Ideal)) (x2 x3 x4 : (⟨S2048x512, .f32⟩ : BufTy).Contents (Elt Ideal)) (x5 : (⟨S512x2048, .f32⟩ : BufTy).Contents (Elt Ideal))

/-- The single-precision word of 1.0 is the number one. -/
theorem one_word : Ideal.ofBits .f32 0x3F800000#32 = (1 : EReal) := by
  simp [Ideal.ofBits, Ideal.ieee, -EReal.coe_mul]; norm_num

/-- The gate: 1 / (1 + exp (−(z_c · W_qᵀ))) is the logistic function of z_c · W_qᵀ. -/
theorem gate_eq (b : Fin 256) (a : Fin 2048) : val_main_v7 (F := Ideal) x0 x2 (ix2 b a) = gate x0 x2 b a := by
  have e1 : ∀ k : Fin 512, lidx_main_v1 (ix2 b a) k = ix2 b k := fun k =>
    funext fun d => Fin.ext (by match d with | ⟨0, _⟩ => rfl | ⟨1, _⟩ => rfl)
  have e2 : ∀ k : Fin 512, idx_main_v0 (ridx_main_v1 (ix2 b a) k) = ix2 a k := fun k =>
    funext fun d => Fin.ext (by match d with | ⟨0, _⟩ => rfl | ⟨1, _⟩ => rfl)
  rw [val_main_v7_apply, val_main_v6_apply, val_main_cst_0_apply, val_main_v5_apply, val_main_v4_apply,
    val_main_cst_apply, val_main_v3_apply, val_main_v2_apply, val_main_v1_apply]
  simp only [val_main_v0_apply, e1, e2]
  show Ideal.div (Ideal.ofBits .f32 0x3F800000#32)
    (Ideal.ofBits .f32 0x3F800000#32 + Ideal.exp (-(∑ k : Fin 512, x0 (ix2 b k) * x2 (ix2 a k)))) = _
  rw [one_word]
  rfl

/-- The stacked K projection at (w, b, a). -/
theorem K_eq (w : Fin 64) (b : Fin 256) (a : Fin 2048) :
    val_main_v8 (F := Ideal) x1 x3 (ix3 w b a) = projW x1 x3 w b a := by
  have el : ∀ k : Fin 512, lidx_main_v8 (ix3 w b a) k = ix3 w b k := fun k =>
    funext fun d => Fin.ext (by match d with | ⟨0, _⟩ => rfl | ⟨1, _⟩ => rfl | ⟨2, _⟩ => rfl)
  have er : ∀ k : Fin 512, ridx_main_v8 (ix3 w b a) k = ix2 a k := fun k =>
    funext fun d => Fin.ext (by match d with | ⟨0, _⟩ => rfl | ⟨1, _⟩ => rfl)
  rw [val_main_v8_apply]
  simp only [el, er]
  rfl

/-- The stacked V projection at (w, b, a). -/
theorem V_eq (w : Fin 64) (b : Fin 256) (a : Fin 2048) :
    val_main_v9 (F := Ideal) x1 x4 (ix3 w b a) = projW x1 x4 w b a := by
  have el : ∀ k : Fin 512, lidx_main_v9 (ix3 w b a) k = ix3 w b k := fun k =>
    funext fun d => Fin.ext (by match d with | ⟨0, _⟩ => rfl | ⟨1, _⟩ => rfl | ⟨2, _⟩ => rfl)
  have er : ∀ k : Fin 512, ridx_main_v9 (ix3 w b a) k = ix2 a k := fun k =>
    funext fun d => Fin.ext (by match d with | ⟨0, _⟩ => rfl | ⟨1, _⟩ => rfl)
  rw [val_main_v9_apply]
  simp only [el, er]
  rfl

/-- The per-step maximum is the largest entry of that step's K matrix. -/
theorem M_eq (w : Fin 64) : val_main_v10 (F := Ideal) x1 x3 (ix1 w) = gmax (projW x1 x3 w) := by
  unfold val_main_v10
  refine (Cert.Maxima.onePass (val_main_v8 (F := Ideal) x1 x3) (val_main_cst_1 (F := Ideal))
    (fun i => (val_main_cst_1_apply i).trans Cert.Maxima.negInf) reducesTo_S64x256x2048_S64_d1_2 h_S_ w).trans ?_
  simp only [K_eq]

/-- The shifted exponential at (w, b, a) is E_w (b, a). -/
theorem E_eq (w : Fin 64) (b : Fin 256) (a : Fin 2048) :
    val_main_v14 (F := Ideal) x1 x3 (ix3 w b a) = wexp x1 x3 w b a := by
  have e : idx_main_v11 (idx_main_v12 (ix3 w b a)) = ix1 w :=
    funext fun d => Fin.ext (by match d with | ⟨0, _⟩ => rfl)
  rw [val_main_v14_apply, val_main_v13_apply, val_main_v12_apply, val_main_v11_apply, e, M_eq, K_eq]
  rfl

/-- The numerator. -/
theorem num_eq (b : Fin 256) (a : Fin 2048) : val_main_v16 (F := Ideal) x1 x3 x4 (ix2 b a) = num x1 x3 x4 b a := by
  have e : ∀ w : Fin 64, idx_main_v16 (ix2 b a) w = ix3 w b a := fun w =>
    funext fun d => Fin.ext (by match d with | ⟨0, _⟩ => rfl | ⟨1, _⟩ => rfl | ⟨2, _⟩ => rfl)
  rw [val_main_v16_apply, val_main_cst_2_apply]
  show Ideal.ofBits .f32 0x00000000#32 + _ = _
  rw [Ideal.ofBits_zero_f32, zero_add]
  unfold num
  refine Finset.sum_congr rfl fun w _ => ?_
  rw [val_main_v15_apply, e, E_eq, V_eq]
  rfl

/-- The denominator's sum. -/
theorem den_eq (b : Fin 256) (a : Fin 2048) : val_main_v17 (F := Ideal) x1 x3 (ix2 b a) = den x1 x3 b a := by
  have e : ∀ w : Fin 64, idx_main_v17 (ix2 b a) w = ix3 w b a := fun w =>
    funext fun d => Fin.ext (by match d with | ⟨0, _⟩ => rfl | ⟨1, _⟩ => rfl | ⟨2, _⟩ => rfl)
  rw [val_main_v17_apply, val_main_cst_3_apply]
  show Ideal.ofBits .f32 0x00000000#32 + _ = _
  rw [Ideal.ofBits_zero_f32, zero_add]
  unfold den
  refine Finset.sum_congr rfl fun w _ => ?_
  rw [e, E_eq]

/-- The gated context. -/
theorem mix_eq (b : Fin 256) (a : Fin 2048) :
    val_main_v21 (F := Ideal) x0 x1 x2 x3 x4 (ix2 b a) = mix x0 x1 x2 x3 x4 b a := by
  rw [val_main_v21_apply, gate_eq, val_main_v20_apply, num_eq, val_main_v19_apply, val_main_v18_apply,
    val_main_cst_4_apply, den_eq]
  rfl

/-- THE REFERENCE'S RESULT is the specification's array. -/
theorem result_eq : val_main_v23 (F := Ideal) x0 x1 x2 x3 x4 x5 = G x0 x1 x2 x3 x4 x5 := by
  funext i
  obtain ⟨b, l, rfl⟩ : ∃ (b : Fin 256) (l : Fin 512), i = ix2 b l := ⟨i 0, i 1, eq_ix2 i⟩
  have el : ∀ a : Fin 2048, lidx_main_v23 (ix2 b l) a = ix2 b a := fun a =>
    funext fun d => Fin.ext (by match d with | ⟨0, _⟩ => rfl | ⟨1, _⟩ => rfl)
  have er : ∀ a : Fin 2048, idx_main_v22 (ridx_main_v23 (ix2 b l) a) = ix2 l a := fun a =>
    funext fun d => Fin.ext (by match d with | ⟨0, _⟩ => rfl | ⟨1, _⟩ => rfl)
  rw [val_main_v23_apply, G_apply]
  unfold outAt
  refine Finset.sum_congr rfl fun a _ => ?_
  rw [val_main_v22_apply, el, er, mix_eq]

end Cert.ReferenceIdeal.RefValue

end
-- ==== Proof.lean ====
/-
  The certificate's five claims for a gated, windowed exponential-weights kernel and its array-at-a-time reference.

  Both programs compute, from a current latent z_c, a window of 64 latents z_w and four weight matrices,

      out = (σ(z_c · W_qᵀ) ∘ (Σ_w E_w ∘ V_w) / (ε + Σ_w E_w)) · W_oᵀ,    E_w = exp (K_w − max K_w),
      K_w = z_w[w] · W_kᵀ,  V_w = z_w[w] · W_vᵀ.

  The kernel visits the window steps one after the other, keeping the two sums and the gate in buffers it carries from
  step to step, takes each step's maximum in two passes, and forms the output after the last step; the reference computes
  every step at once, takes each maximum in one reduction, and sums over the window axis. On the extended reals the two
  agree entry by entry: a sum of finitely many terms does not depend on the order in which they are added, a maximum is
  determined by its upper bounds, a change of float format is the identity, and the gate's two spellings are one
  function by definition. No cancellation or distribution is used, so the inputs' finiteness is never needed.

  The three frame claims are the generated frames (the reference's is its generated run with the result dropped); the
  idealization rewrote nothing, so its claim is trivial.
-/
import proofs.«131885_j30305289240684_1_alg».proof.Defs
import proofs.«131885_j30305289240684_1_alg».proof.Proof.Gen.Kernel
import proofs.«131885_j30305289240684_1_alg».proof.Proof.Gen.Kernel.Frame
import proofs.«131885_j30305289240684_1_alg».proof.Proof.Gen.KernelIdeal
import proofs.«131885_j30305289240684_1_alg».proof.Proof.Gen.KernelIdeal.Frame
import proofs.«131885_j30305289240684_1_alg».proof.Proof.Gen.KernelIdeal.Value
import proofs.«131885_j30305289240684_1_alg».proof.Proof.Gen.ReferenceIdeal
import proofs.«131885_j30305289240684_1_alg».proof.Proof.Gen.ReferenceIdeal.Run
import proofs.«131885_j30305289240684_1_alg».proof.Proof.Gen.ReferenceIdeal.Read
import proofs.«131885_j30305289240684_1_alg».proof.Proof.Gen.Pre_finite_inputs
import proofs.«131885_j30305289240684_1_alg».proof.Proof.RunValue
import proofs.«131885_j30305289240684_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array ends at the result matrix of its arguments
    and the reference's at its own term of its arguments, which is the same matrix. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v23_eq _ _ _ _ _ _).trans (Cert.ReferenceIdeal.RefValue.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
